-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x256 : Shape := ⟨3, ![1, 8192, 256]⟩
abbrev S1x8192x8192 : Shape := ⟨3, ![1, 8192, 8192]⟩
abbrev S256x256 : Shape := ⟨2, ![256, 256]⟩
abbrev S_ : Shape := ⟨0, ![]⟩

class Facts : Prop where
  bcast_S_S1x8192x256 : S_.BroadcastsInDim S1x8192x256 (![] : Fin 0 → Fin S1x8192x256.rank)
  reducesTo_S1x8192x256_S_d0_1_2 : S1x8192x256.ReducesTo [0, 1, 2] S_
  h_S_ : 0 < S_.numel
  bcast_S_S1x8192x8192 : S_.BroadcastsInDim S1x8192x8192 (![] : Fin 0 → Fin S1x8192x8192.rank)
  reducesTo_S1x8192x8192_S_d0_1_2 : S1x8192x8192.ReducesTo [0, 1, 2] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S1x8192x256 .f32) (main_arg1 : FVec F S1x8192x8192 .f32) (main_arg2 : FVec F S256x256 .f32) : IVec S_ 1 :=
  let main_v0 : FVec F S1x8192x256 .f32 := Host.absf main_arg0
  let main_cst : FVec F S_ .f32 := constant S_ .f32 0x7F800000#32
  let main_v1 : FVec F S1x8192x256 .f32 := broadcastInDim S1x8192x256 ![] bcast_S_S1x8192x256 main_cst
  let main_v2 : IVec S1x8192x256 1 := cmpf .olt main_v0 main_v1
  let main_c : IVec S_ 1 := constantI S_ 1 1#1
  let main_v3 : IVec S_ 1 := (fun x v => Host.reduce IntOp.andi x v reducesTo_S1x8192x256_S_d0_1_2 h_S_) main_v2 main_c
  let main_v4 : FVec F S1x8192x8192 .f32 := Host.absf main_arg1
  let main_cst_0 : FVec F S_ .f32 := constant S_ .f32 0x7F800000#32
  let main_v5 : FVec F S1x8192x8192 .f32 := broadcastInDim S1x8192x8192 ![] bcast_S_S1x8192x8192 main_cst_0
  let main_v6 : IVec S1x8192x8192 1 := cmpf .olt main_v4 main_v5
  let main_c_1 : IVec S_ 1 := constantI S_ 1 1#1
  let main_v7 : IVec S_ 1 := (fun x v => Host.reduce IntOp.andi x v reducesTo_S1x8192x8192_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S1x8192x256 : Shape := ⟨3, ![1, 8192, 256]⟩
abbrev S1x8192x8192 : Shape := ⟨3, ![1, 8192, 8192]⟩
abbrev S256x256 : Shape := ⟨2, ![256, 256]⟩
abbrev S8192x256 : Shape := ⟨2, ![8192, 256]⟩
abbrev S1x2048x1024 : Shape := ⟨3, ![1, 2048, 1024]⟩
abbrev S2048x256 : Shape := ⟨2, ![2048, 256]⟩
abbrev S2048x1024 : Shape := ⟨2, ![2048, 1024]⟩
abbrev S1024x256 : Shape := ⟨2, ![1024, 256]⟩

abbrev nBuf : Space → Nat
  | .hbm => 7
  | .vmem => 5
  | .smem => 0
  | _ => 0

abbrev bufTy : (tb : Table) → Fin (tcTables nBuf tb) → BufTy
  | .hbm, ⟨0, _⟩ => ⟨S1x8192x256, .f32⟩
  | .hbm, ⟨1, _⟩ => ⟨S1x8192x8192, .f32⟩
  | .hbm, ⟨2, _⟩ => ⟨S256x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S1x8192x256, .f32⟩
  | .local _ .vmem, ⟨0, _⟩ => ⟨S1x2048x1024, .f32⟩
  | .local _ .vmem, ⟨1, _⟩ => ⟨S1x2048x1024, .f32⟩
  | .local _ .vmem, ⟨2, _⟩ => ⟨S8192x256, .f32⟩
  | .local _ .vmem, ⟨3, _⟩ => ⟨S2048x256, .f32⟩
  | .local _ .vmem, ⟨4, _⟩ => ⟨S2048x256, .f32⟩
  | _, _ => ⟨S1x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v6 : BitVec 32 := Scalar.muli arg1 c1024_i32
  v6
def k0_off1 (i : grid0.Coords) : Fin 2 → Nat :=
  let arg1 : BitVec 32 := BitVec.ofNat 32 (i 1).val
  let c1024_i32 : BitVec 32 := 1024#32
  let v6 : BitVec 32 := Scalar.muli arg1 c1024_i32
  let v7 : BitVec 32 := v6
  let v8 : Index := Scalar.indexCast v7
  let c0_3 : Index := 0#32
  ![v8.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S1x8192x256_S8192x256 : S1x8192x256.ShapeCasts S8192x256
  bcast_S8192x256_S1x8192x256_1_2 : S8192x256.BroadcastsInDim S1x8192x256 (![1, 2] : Fin 2 → Fin S1x8192x256.rank)
  inb_S2048x256_S2048x256_0_0 : ∀ a, (![0, 0] : Fin 2 → Nat) a + S2048x256.size a ≤ S2048x256.size a
  h_S2048x256 : 0 < S2048x256.numel
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  h_S1024x256 : 0 < S1024x256.numel
  shapeCasts_S1024x256_S1024x256 : S1024x256.ShapeCasts S1024x256
  shapeCasts_S2048x256_S2048x256 : S2048x256.ShapeCasts S2048x256
  dot_S8192x256_S256x256_S8192x256_1_0_0_1_n_n_wf : DotDims.WF S8192x256 S256x256 S8192x256 [1] [0] [0] [1] [] []
  dot_S2048x1024_S1024x256_S2048x256_1_0_0_1_n_n_wf : DotDims.WF S2048x1024 S1024x256 S2048x256 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S1x8192x8192.size a
  hwx0_0 : ∀ i : grid0.Coords, EltTy.bits .f32 = 32 ∨ (Rect.block (s := S1x8192x8192) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_arg1) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x8192x256 : Shape := ⟨3, ![1, 8192, 256]⟩
abbrev S1x8192x8192 : Shape := ⟨3, ![1, 8192, 8192]⟩
abbrev S256x256 : Shape := ⟨2, ![256, 256]⟩
abbrev S8192x8192 : Shape := ⟨2, ![8192, 8192]⟩
abbrev S8192x256 : Shape := ⟨2, ![8192, 256]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1x8192x256, .f32⟩
  | .hbm, ⟨1, _⟩ => ⟨S1x8192x8192, .f32⟩
  | .hbm, ⟨2, _⟩ => ⟨S256x256, .f32⟩
  | .hbm, ⟨3, _⟩ => ⟨S8192x8192, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S1x8192x256, .f32⟩
  | .hbm, ⟨8, _⟩ => ⟨S_, .f32⟩
  | .hbm, ⟨9, _⟩ => ⟨S1x8192x256, .f32⟩
  | .hbm, ⟨10, _⟩ => ⟨S1x8192x256, .f32⟩
  | _, _ => ⟨S1x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  shapeCasts_S1x8192x8192_S8192x8192 : S1x8192x8192.ShapeCasts S8192x8192
  shapeCasts_S1x8192x256_S8192x256 : S1x8192x256.ShapeCasts S8192x256
  bcast_S8192x256_S1x8192x256_1_2 : S8192x256.BroadcastsInDim S1x8192x256 (![1, 2] : Fin 2 → Fin S1x8192x256.rank)
  bcast_S_S1x8192x256 : S_.BroadcastsInDim S1x8192x256 (![] : Fin 0 → Fin S1x8192x256.rank)
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []

variable [Facts₀]

def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.BodyCases.lean ====
/-
  What one run of the kernel body leaves in the output block, case by case.

  The body works on three buffers: a (1, 2048, 1024) block of the adjacency array, the whole 8192 x 256 feature
  product, and the 2048 x 256 output block, which doubles as the accumulator of the reduction over the column tiles.
  At column tile k it takes rows 1024 k .. 1024 k + 1023 of the feature product (`tileRows`), multiplies the adjacency
  block with them and adds the product to the accumulator:
  * at the first tile the accumulator is first set to zero, so the block ends at 0 + product;
  * at a middle tile it ends at (what the tile before left) + product;
  * at the last tile the sum is finally cut off below at zero.
  Each case is the payload of the body's last store, its loads reading the whole buffers.
-/
import proofs.«119241_j63788854281032_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BodyCases

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The 1024 rows of the feature product that column tile `i 1` of the grid meets. -/
def tileRows (i : grid0.Coords) (x1 : Vec F S8192x256 .f32) : Vec F S1024x256 .f32 :=
  View.ld x1 (Rect.unit (s := S8192x256) (k0_off1 i) S1024x256.size (k0_off1_inb i))

/-- A middle tile: the accumulator plus the tile's product. -/
theorem out_middle (c : Dev nD) (i : grid0.Coords) (a2 : Memref sig .tc .vmem S1x2048x1024 .f32) (h2 : a2.IsWhole)
    (a3 : Memref sig .tc .vmem S8192x256 .f32) (h3 : a3.IsWhole) (a4 : Memref sig .tc .vmem S2048x256 .f32) (h4 : a4.IsWhole)
    (hc0 : ¬cond0_0 i) (hc1 : ¬cond0_1 i) (x0 : Vec F S1x2048x1024 .f32) (x1 : Vec F S8192x256 .f32) (xo : Vec F S2048x256 .f32) :
    out0_B_2 c i a2 h2 a3 h3 a4 h4 hc0 hc1 x0 x1 xo = k0_pay2 x0 (tileRows i x1) xo := by
  unfold out0_B_2
  rw [View.read_writes_eq_canon _ _ _ (cover0_B_2 c i a2 h2 a3 h3 a4 h4 hc0 hc1 x0 x1 xo)]
  unfold kernelRun0_B
  dsimp only
  rw [View.canon_unit_zero zeros2]
  simp only [View.readAt_eq_ld, h2.read_unread, h3.read_unread, h4.read_unread, View.ld_unit_zero (S := S2048x256) zeros2,
    View.ld_unit_zero (S := S1x2048x1024) zeros3]
  rfl

/-- The first tile: zero plus the tile's product. -/
theorem out_first (c : Dev nD) (i : grid0.Coords) (a2 : Memref sig .tc .vmem S1x2048x1024 .f32) (h2 : a2.IsWhole)
    (a3 : Memref sig .tc .vmem S8192x256 .f32) (h3 : a3.IsWhole) (a4 : Memref sig .tc .vmem S2048x256 .f32) (h4 : a4.IsWhole)
    (hc0 : cond0_0 i) (hc1 : ¬cond0_1 i) (x0 : Vec F S1x2048x1024 .f32) (x1 : Vec F S8192x256 .f32) :
    out0_A_2 c i a2 h2 a3 h3 a4 h4 hc0 hc1 x0 x1 = k0_pay2 x0 (tileRows i x1) (k0_pay1 (F := F)) := by
  unfold out0_A_2
  rw [View.read_writes_eq_canon _ _ _ (cover0_A_2 c i a2 h2 a3 h3 a4 h4 hc0 hc1 x0 x1)]
  unfold kernelRun0_A
  dsimp only
  sl_unfold_words
  rw [View.canon_cons_unit_zero (S := S2048x256) zeros2]
  simp only [View.readCov_unit_zero (S := S2048x256) _ zeros2, View.readAt_eq_ld, h2.read_unread, h3.read_unread,
    View.ld_unit_zero (S := S1x2048x1024) zeros3]
  rfl

/-- The last tile: the accumulator plus the tile's product, cut off below at zero. -/
theorem out_last (c : Dev nD) (i : grid0.Coords) (a2 : Memref sig .tc .vmem S1x2048x1024 .f32) (h2 : a2.IsWhole)
    (a3 : Memref sig .tc .vmem S8192x256 .f32) (h3 : a3.IsWhole) (a4 : Memref sig .tc .vmem S2048x256 .f32) (h4 : a4.IsWhole)
    (hc0 : ¬cond0_0 i) (hc1 : cond0_1 i) (x0 : Vec F S1x2048x1024 .f32) (x1 : Vec F S8192x256 .f32) (xo : Vec F S2048x256 .f32) :
    out0_C_2 c i a2 h2 a3 h3 a4 h4 hc0 hc1 x0 x1 xo = k0_pay3 (k0_pay2 x0 (tileRows i x1) xo) := by
  unfold out0_C_2
  rw [View.read_writes_eq_canon _ _ _ (cover0_C_2 c i a2 h2 a3 h3 a4 h4 hc0 hc1 x0 x1 xo)]
  unfold kernelRun0_C
  dsimp only
  sl_unfold_words
  rw [View.canon_cons_unit_zero (S := S2048x256) zeros2]
  simp only [View.readCov_unit_zero (S := S2048x256) _ zeros2, View.readAt_eq_ld, h2.read_unread, h3.read_unread, h4.read_unread,
    View.ld_unit_zero (S := S2048x256) zeros2, View.ld_unit_zero (S := S1x2048x1024) zeros3]
  rfl

end Cert.KernelIdeal.BodyCases

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.PointValue.lean ====
/-
  The body's arithmetic at one position of the output block, on the extended reals.

  With x0 the (1, 2048, 1024) adjacency block, xs the 1024 x 256 rows of the feature product the tile meets and acc the
  accumulator, the accumulate step leaves at (r, j)
      acc(r, j) + Σ_{q < 1024} x0(0, r, q) · xs(q, j) :
  narrowing the operands to a 16-bit format changes nothing on the extended reals, the leading unit axis of the block
  is dropped by a reshape that keeps the row-major position, and the matrix unit's product into a zero accumulator is the
  plain sum. The reset stores 0 everywhere, and the final step is the maximum with 0.
-/
import proofs.«119241_j63788854281032_2_alg».proof.Proof.Gen.KernelIdeal.Skeleton
import proofs.«119241_j63788854281032_2_alg».proof.Proof.LibPlainDot
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.PointValue

open Cert.KernelIdeal Cert.KernelIdeal.Gen

/-- Dropping the block's leading unit axis: (r, q) of the 2048 x 1024 matrix is (0, r, q) of the block. -/
theorem block_cast (x0 : Vec Ideal S1x2048x1024 .f32) (r : Fin 2048) (q : Fin 1024) :
    shapeCast S2048x1024 x0 shapeCasts_S1x2048x1024_S2048x1024 (ix2 r q) = x0 (ix3 (0 : Fin 1) r q) :=
  shapeCast_apply x0 shapeCasts_S1x2048x1024_S2048x1024 (ix2 r q) (ix3 (0 : Fin 1) r q)
    (by rw [Shape.rowMajor_val_three, Shape.rowMajor_val_two]
        show (0 * 2048 + r.val) * 1024 + q.val = r.val * 1024 + q.val
        omega)

/-- The reset's block is zero everywhere. -/
theorem reset_apply (y : S2048x256.Idx) : k0_pay1 (F := Ideal) y = 0 := by
  unfold k0_pay1
  show Ideal.ofBits .f32 0x00000000#32 = 0
  exact Ideal.ofBits_zero_f32

/-- The accumulate step at (r, j). -/
theorem accumulate_apply (x0 : Vec Ideal S1x2048x1024 .f32) (xs : Vec Ideal S1024x256 .f32) (acc : Vec Ideal S2048x256 .f32)
    (r : Fin 2048) (j : Fin 256) :
    k0_pay2 (F := Ideal) x0 xs acc (ix2 r j) = acc (ix2 r j) + ∑ q : Fin 1024, x0 (ix3 (0 : Fin 1) r q) * xs (ix2 q j) := by
  unfold k0_pay2
  rw [addf_apply, shapeCast_self]
  refine congrArg (acc (ix2 r j) + ·) ?_
  refine (Cert.LibPlainDot.matmul_plain 2048 1024 256 none _ _ (ix2 r j)).trans ?_
  refine Finset.sum_congr rfl fun q _ => ?_
  rw [truncf_apply, truncf_apply, shapeCast_self]
  exact congrArg (· * xs (ix2 q j)) (block_cast x0 r q)

/-- The final step at any position: the maximum with zero. -/
theorem cutoff_apply (v : Vec Ideal S2048x256 .f32) (y : S2048x256.Idx) : k0_pay3 (F := Ideal) v y = max (v y) 0 := by
  unfold k0_pay3
  rw [maximumf_apply, shapeCast_self]
  show max (v y) (Ideal.ofBits .f32 0x00000000#32) = _
  rw [Ideal.ofBits_zero_f32]

end Cert.KernelIdeal.PointValue

end
-- ==== Proof.LibMatAssoc.lean ====
/-
  Sums of products of finite numbers on the extended reals.

  On the extended reals a product does not distribute over a sum once an infinity is involved, so the law
  a (d w) = (a d) w of matrix products is proved where every entry is a real number: there both sides are the coercion
  of one real double sum. Beside it, a sum over the first B (K + 1) naturals is the sum over the first B K of them
  plus the sum over the next B, which is how a contraction cut into tiles of B is put together again.
-/
import Mathlib.Data.EReal.Basic
import Mathlib.Algebra.BigOperators.Ring.Finset
import Mathlib.Algebra.BigOperators.Intervals

namespace Cert.MatAssoc

open Finset

/-- A number that is a real: neither infinity. -/
def IsReal (x : EReal) : Prop := ∃ r : ℝ, x = (r : EReal)

theorem isReal_zero : IsReal 0 := ⟨0, rfl⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of a triple product of matrices of reals, entry by entry: for a row `a` of the first factor, the
    second factor `d` and a column `w` of the third, Σₙ a n · (Σ_f d n f · w f) = Σ_f (Σₙ a n · d n f) · w f. -/
theorem assoc_of_real (N K : ℕ) (a : ℕ → EReal) (d : ℕ → ℕ → EReal) (w : ℕ → EReal)
    (ha : ∀ n, IsReal (a n)) (hd : ∀ n f, IsReal (d n f)) (hw : ∀ f, IsReal (w f)) :
    ∑ n ∈ range N, a n * ∑ f ∈ range K, d n f * w f = ∑ f ∈ range K, (∑ n ∈ range N, a n * d n f) * w f := by
  choose a' ha using ha
  choose d' hd using hd
  choose w' hw using hw
  simp only [ha, hd, hw, ← EReal.coe_mul, ← coe_sum]
  congr 1
  simp only [Finset.mul_sum, Finset.sum_mul]
  rw [Finset.sum_comm]
  exact Finset.sum_congr rfl fun f _ => Finset.sum_congr rfl fun n _ => by ring

/-- One more tile of `B` terms. -/
theorem sum_tiles_succ (B K : ℕ) (g : ℕ → EReal) :
    ∑ n ∈ range (B * (K + 1)), g n = ∑ n ∈ range (B * K), g n + ∑ q ∈ range B, g (B * K + q) := by
  rw [mul_add, mul_one, Finset.sum_range_add]

end Cert.MatAssoc
-- ==== Proof.LibNatRead.lean ====
/-
  Arrays read at natural-number coordinates.

  An array of rank two or three over the extended reals is read at coordinates given as natural numbers: inside the
  extents it is the array's entry, outside it is 0. Every entry of the array is such a reading at its own coordinates,
  so equations between positions of differently tiled arrays become equations between natural numbers; and a sum over
  Fin n of readings is the sum over the first n naturals. The readings of an array of real numbers are real numbers.
-/
import proofs.«119241_j63788854281032_2_alg».proof.Proof.LibMatAssoc
import Idealize.ShloMosaic.Lib.ValueIdx

noncomputable section

open Idealize.ShloMosaic Idealize.ShloMosaic.ValueIdx

namespace Cert.NatRead

open Cert.MatAssoc

/-- A rank-two array at natural coordinates, 0 outside its extents. -/
def rd2 {A B : ℕ} (x : (⟨2, ![A, B]⟩ : Shape).Idx → EReal) (a b : ℕ) : EReal :=
  if h : a < A ∧ b < B then x (ix2 ⟨a, h.1⟩ ⟨b, h.2⟩) else 0

/-- A rank-three array at natural coordinates, 0 outside its extents. -/
def rd3 {A B C : ℕ} (x : (⟨3, ![A, B, C]⟩ : Shape).Idx → EReal) (a b c : ℕ) : EReal :=
  if h : a < A ∧ b < B ∧ c < C then x (ix3 ⟨a, h.1⟩ ⟨b, h.2.1⟩ ⟨c, h.2.2⟩) else 0

theorem rd2_ix {A B : ℕ} (x : (⟨2, ![A, B]⟩ : Shape).Idx → EReal) (a : Fin A) (b : Fin B) :
    x (ix2 a b) = rd2 x a.val b.val := by
  unfold rd2
  rw [dif_pos ⟨a.isLt, b.isLt⟩]

theorem rd3_ix {A B C : ℕ} (x : (⟨3, ![A, B, C]⟩ : Shape).Idx → EReal) (a : Fin A) (b : Fin B) (c : Fin C) :
    x (ix3 a b c) = rd3 x a.val b.val c.val := by
  unfold rd3
  rw [dif_pos ⟨a.isLt, b.isLt, c.isLt⟩]

/-- Inside the extents a reading is the entry. -/
theorem rd2_mk {A B : ℕ} (x : (⟨2, ![A, B]⟩ : Shape).Idx → EReal) (a : ℕ) (ha : a < A) (b : ℕ) (hb : b < B) :
    rd2 x a b = x (ix2 ⟨a, ha⟩ ⟨b, hb⟩) := by
  unfold rd2
  rw [dif_pos ⟨ha, hb⟩]

/-- An entry is the reading at its coordinates' values. -/
theorem rd2_of_val {A B : ℕ} (x : (⟨2, ![A, B]⟩ : Shape).Idx → EReal) (i : (⟨2, ![A, B]⟩ : Shape).Idx) (a b : ℕ)
    (h0 : (i 0).val = a) (h1 : (i 1).val = b) : x i = rd2 x a b := by
  subst h0 h1
  rw [eq_ix2 i]
  exact rd2_ix x (i 0) (i 1)

theorem rd3_of_val {A B C : ℕ} (x : (⟨3, ![A, B, C]⟩ : Shape).Idx → EReal) (i : (⟨3, ![A, B, C]⟩ : Shape).Idx) (a b c : ℕ)
    (h0 : (i 0).val = a) (h1 : (i 1).val = b) (h2 : (i 2).val = c) : x i = rd3 x a b c := by
  subst h0 h1 h2
  rw [eq_ix3 i]
  exact rd3_ix x (i 0) (i 1) (i 2)

theorem isReal_rd2 {A B : ℕ} (x : (⟨2, ![A, B]⟩ : Shape).Idx → EReal) (hx : ∀ i, IsReal (x i)) (a b : ℕ) :
    IsReal (rd2 x a b) := by
  unfold rd2
  split
  · exact hx _
  · exact isReal_zero

theorem isReal_rd3 {A B C : ℕ} (x : (⟨3, ![A, B, C]⟩ : Shape).Idx → EReal) (hx : ∀ i, IsReal (x i)) (a b c : ℕ) :
    IsReal (rd3 x a b c) := by
  unfold rd3
  split
  · exact hx _
  · exact isReal_zero

/-- A sum over Fin n of a function of the index's value is the sum over the first n naturals. -/
theorem sum_fin (n : ℕ) (g : ℕ → EReal) : ∑ k : Fin n, g k.val = ∑ k ∈ Finset.range n, g k :=
  (Finset.sum_range g).symm

end Cert.NatRead

end
-- ==== Proof.TileSum.lean ====
/-
  The running sum over column tiles.

  For an adjacency array `adj` (1 x 8192 x 8192) and a feature product `df` (8192 x 256), row R and column j of the
  product adj · df is the sum over n < 8192 of adj(0, R, n) · df(n, j). The kernel meets the n in tiles of 1024: after
  the tiles 0 .. K-1 the accumulator holds the sum over n < 1024 K (`partialSum`). One accumulate step on a block whose
  entries are the right readings of `adj` and `df` takes the sum over K tiles to the sum over K + 1.
-/
import proofs.«119241_j63788854281032_2_alg».proof.Proof.PointValue
import proofs.«119241_j63788854281032_2_alg».proof.Proof.LibNatRead

noncomputable section

open Idealize.ShloMosaic Idealize.ShloMosaic.ValueIdx

namespace Cert.KernelIdeal.TileSum

open Cert.KernelIdeal Cert.KernelIdeal.Gen Cert.NatRead Cert.MatAssoc Cert.KernelIdeal.PointValue

/-- The n-th term of entry (R, j) of adj · df. -/
def term (adj : S1x8192x8192.Idx → EReal) (df : S8192x256.Idx → EReal) (R j n : ℕ) : EReal :=
  rd3 adj 0 R n * rd2 df n j

/-- Entry (R, j) of adj · df summed over the first K tiles of 1024 terms. -/
def partialSum (adj : S1x8192x8192.Idx → EReal) (df : S8192x256.Idx → EReal) (R j K : ℕ) : EReal :=
  ∑ n ∈ Finset.range (1024 * K), term adj df R j n

theorem partialSum_zero (adj : S1x8192x8192.Idx → EReal) (df : S8192x256.Idx → EReal) (R j : ℕ) :
    partialSum adj df R j 0 = 0 := by
  unfold partialSum
  rw [Nat.mul_zero, Finset.range_zero, Finset.sum_empty]

/-- One accumulate step: on the block of rows 2048 I .. and columns 1024 k .. of `adj`, with the rows 1024 k .. of `df`,
    an accumulator at the sum over k tiles ends at the sum over k + 1 tiles. -/
theorem step (adj : S1x8192x8192.Idx → EReal) (df : S8192x256.Idx → EReal) (I k : ℕ)
    (x0 : Vec Ideal S1x2048x1024 .f32) (xs : Vec Ideal S1024x256 .f32) (acc : Vec Ideal S2048x256 .f32)
    (hx0 : ∀ (r : Fin 2048) (q : Fin 1024), x0 (ix3 (0 : Fin 1) r q) = rd3 adj 0 (2048 * I + r.val) (1024 * k + q.val))
    (hxs : ∀ (q : Fin 1024) (j : Fin 256), xs (ix2 q j) = rd2 df (1024 * k + q.val) j.val)
    (r : Fin 2048) (j : Fin 256)
    (hacc : acc (ix2 r j) = partialSum adj df (2048 * I + r.val) j.val k) :
    k0_pay2 (F := Ideal) x0 xs acc (ix2 r j) = partialSum adj df (2048 * I + r.val) j.val (k + 1) := by
  rw [accumulate_apply, hacc]
  unfold partialSum
  rw [sum_tiles_succ]
  refine congrArg (_ + ·) ?_
  rw [← sum_fin 1024 fun q => term adj df (2048 * I + r.val) j.val (1024 * k + q)]
  refine Finset.sum_congr rfl fun q _ => ?_
  rw [hx0 r q, hxs q j]
  rfl

end Cert.KernelIdeal.TileSum

end
-- ==== Proof.Accumulation.lean ====
/-
  What the output block holds after each grid point.

  The grid has 4 x 8 points, the column tile running fastest: point t works on row tile t / 8 and column tile t % 8. Its
  adjacency block is rows 2048 (t / 8) .. and columns 1024 (t % 8) .. of the adjacency array, the feature product is
  staged whole, and the body meets its rows 1024 (t % 8) ... So after point t the output block holds, at (r, j), entry
  (2048 (t / 8) + r, j) of adj · df summed over the tiles 0 .. t % 8 — and, at the last tile, its maximum with 0. This is
  proved by induction on the point: the first tile of a row starts from zero, every other tile from what the point
  before left.
-/
import proofs.«119241_j63788854281032_2_alg».proof.Proof.Gen.KernelIdeal.Frame
import proofs.«119241_j63788854281032_2_alg».proof.Proof.BodyCases
import proofs.«119241_j63788854281032_2_alg».proof.Proof.TileSum

noncomputable section

open Idealize.ShloMosaic Idealize.ShloMosaic.TcCoe Idealize.SL.Sem Idealize.ShloMosaic.ValueIdx

namespace Cert.KernelIdeal.Accum

open Cert.KernelIdeal Cert.KernelIdeal.Gen Cert.NatRead Cert.KernelIdeal.TileSum Cert.KernelIdeal.BodyCases
  Cert.KernelIdeal.PointValue

variable (m : (ℓ : Loc nD τ sig) → Buf (Elt Ideal) ℓ)

/-- The adjacency array and the feature product as the region finds them. -/
abbrev adjA (c : Dev nD) : S1x8192x8192.Idx → EReal := V m c main_arg1
abbrev dfA (c : Dev nD) : S8192x256.Idx → EReal := V m c main_call0_v1

/-- Where the windows' blocks sit, point by point. -/
theorem idx_adj : ∀ t : Fin cfg0.N, win0_0.index t 0 = 0 ∧ win0_0.index t 1 = t.val / 8 ∧ win0_0.index t 2 = t.val % 8 :=
  (by decide +kernel : ∀ t : Fin grid0.N, win0_0.index t 0 = 0 ∧ win0_0.index t 1 = t.val / 8 ∧ win0_0.index t 2 = t.val % 8)
theorem idx_df : ∀ t : Fin cfg0.N, win0_1.index t 0 = 0 ∧ win0_1.index t 1 = 0 :=
  (by decide +kernel : ∀ t : Fin grid0.N, win0_1.index t 0 = 0 ∧ win0_1.index t 1 = 0)
theorem off_df : ∀ t : Fin cfg0.N, k0_off1 (grid0.coords t) 0 = 1024 * (t.val % 8) ∧ k0_off1 (grid0.coords t) 1 = 0 :=
  (by decide +kernel : ∀ t : Fin grid0.N, k0_off1 (grid0.coords t) 0 = 1024 * (t.val % 8) ∧ k0_off1 (grid0.coords t) 1 = 0)

/-- The adjacency block at point t. -/
theorem adj_block (c : Dev nD) (t : Fin cfg0.N) (r : Fin 2048) (q : Fin 1024) :
    (iblk m c 0 t : Vec Ideal S1x2048x1024 .f32) (ix3 (0 : Fin 1) r q)
      = rd3 (adjA m c) 0 (2048 * (t.val / 8) + r.val) (1024 * (t.val % 8) + q.val) := by
  unfold iblk
  rw [View.read_apply]
  refine rd3_of_val (adjA m c) _ _ _ _ ?_ ?_ ?_
  · show win0_0.index t 0 * 1 + 1 * 0 = 0
    rw [(idx_adj t).1]
  · show win0_0.index t 1 * 2048 + 1 * r.val = _
    rw [(idx_adj t).2.1]; omega
  · show win0_0.index t 2 * 1024 + 1 * q.val = _
    rw [(idx_adj t).2.2]; omega

/-- The rows of the feature product that point t meets. -/
theorem df_rows (c : Dev nD) (t : Fin cfg0.N) (q : Fin 1024) (j : Fin 256) :
    tileRows (grid0.coords t) (iblk m c 1 t : Vec Ideal S8192x256 .f32) (ix2 q j)
      = rd2 (dfA m c) (1024 * (t.val % 8) + q.val) j.val := by
  unfold tileRows iblk
  show ((cfg0.win 1).blk t).view.read (Elt Ideal) (V m c (Pipeline.arrRef spec0 1)) _ = _
  rw [View.read_apply]
  refine rd2_of_val (dfA m c) _ _ _ ?_ ?_
  · show win0_1.index t 0 * 8192 + 1 * (k0_off1 (grid0.coords t) 0 + 1 * q.val) = _
    rw [(idx_df t).1, (off_df t).1]; omega
  · show win0_1.index t 1 * 256 + 1 * (k0_off1 (grid0.coords t) 1 + 1 * j.val) = _
    rw [(idx_df t).2, (off_df t).2]; omega

/-- The output block after point n: the running sum over the column tiles 0 .. n % 8 of the row tile n / 8, cut off
    at zero once the last tile is in. -/
def stateAt (adj : S1x8192x8192.Idx → EReal) (df : S8192x256.Idx → EReal) (n : ℕ) : Vec Ideal S2048x256 .f32 := fun y =>
  if n % 8 = 7 then max (partialSum adj df (2048 * (n / 8) + (y 0).val) (y 1).val (n % 8 + 1)) 0
  else partialSum adj df (2048 * (n / 8) + (y 0).val) (y 1).val (n % 8 + 1)

/-- A point on the first column tile. -/
theorem at_first (c : Dev nD) (t : Fin cfg0.N) (h0 : t.val % 8 = 0) :
    outsAt0 m c t.val t.isLt = stateAt (adjA m c) (dfA m c) t.val := by
  have h1 : ¬t.val % 8 = 7 := by omega
  refine (outsAt0_A m c t h0 h1).trans ?_
  refine (out_first c (grid0.coords t) (ms0_0 t) (hs0_0 t) (ms0_1 t) (hs0_1 t) (ms0_2 t) (hs0_2 t) ((hcond0_0 t).mpr h0)
    (fun h => h1 ((hcond0_1 t).mp h)) (iblk m c 0 t) (iblk m c 1 t)).trans ?_
  funext y
  obtain ⟨r, j, rfl⟩ : ∃ (r : Fin 2048) (j : Fin 256), y = ix2 r j := ⟨y 0, y 1, eq_ix2 y⟩
  unfold stateAt
  rw [if_neg h1]
  refine step (adjA m c) (dfA m c) (t.val / 8) (t.val % 8) (iblk m c 0 t) (tileRows (grid0.coords t) (iblk m c 1 t))
    (k0_pay1 (F := Ideal)) (adj_block m c t) (df_rows m c t) r j ?_
  rw [reset_apply, h0, partialSum_zero]

/-- A point on a middle column tile. -/
theorem at_middle (c : Dev nD) (t : Fin cfg0.N) (h0 : ¬t.val % 8 = 0) (h1 : ¬t.val % 8 = 7)
    (ih : ∀ h', outsAt0 m c (t.val - 1) h' = stateAt (adjA m c) (dfA m c) (t.val - 1)) :
    outsAt0 m c t.val t.isLt = stateAt (adjA m c) (dfA m c) t.val := by
  refine (outsAt0_B m c t h0 h1).trans ?_
  refine (out_middle c (grid0.coords t) (ms0_0 t) (hs0_0 t) (ms0_1 t) (hs0_1 t) (ms0_2 t) (hs0_2 t)
    (fun h => h0 ((hcond0_0 t).mp h)) (fun h => h1 ((hcond0_1 t).mp h)) (iblk m c 0 t) (iblk m c 1 t)
    (outsAt0 m c (t.val - 1) (Nat.lt_of_le_of_lt (Nat.sub_le _ _) t.isLt))).trans ?_
  rw [ih]
  funext y
  obtain ⟨r, j, rfl⟩ : ∃ (r : Fin 2048) (j : Fin 256), y = ix2 r j := ⟨y 0, y 1, eq_ix2 y⟩
  unfold stateAt
  rw [if_neg h1]
  refine step (adjA m c) (dfA m c) (t.val / 8) (t.val % 8) (iblk m c 0 t) (tileRows (grid0.coords t) (iblk m c 1 t))
    _ (adj_block m c t) (df_rows m c t) r j ?_
  have e1 : (t.val - 1) % 8 + 1 = t.val % 8 := by omega
  have e2 : (t.val - 1) / 8 = t.val / 8 := by omega
  show (if (t.val - 1) % 8 = 7 then _ else _) = _
  rw [if_neg (by omega), e1, e2]

/-- A point on the last column tile. -/
theorem at_last (c : Dev nD) (t : Fin cfg0.N) (h0 : ¬t.val % 8 = 0) (h1 : t.val % 8 = 7)
    (ih : ∀ h', outsAt0 m c (t.val - 1) h' = stateAt (adjA m c) (dfA m c) (t.val - 1)) :
    outsAt0 m c t.val t.isLt = stateAt (adjA m c) (dfA m c) t.val := by
  refine (outsAt0_C m c t h0 h1).trans ?_
  refine (out_last c (grid0.coords t) (ms0_0 t) (hs0_0 t) (ms0_1 t) (hs0_1 t) (ms0_2 t) (hs0_2 t)
    (fun h => h0 ((hcond0_0 t).mp h)) ((hcond0_1 t).mpr h1) (iblk m c 0 t) (iblk m c 1 t)
    (outsAt0 m c (t.val - 1) (Nat.lt_of_le_of_lt (Nat.sub_le _ _) t.isLt))).trans ?_
  rw [ih]
  funext y
  obtain ⟨r, j, rfl⟩ : ∃ (r : Fin 2048) (j : Fin 256), y = ix2 r j := ⟨y 0, y 1, eq_ix2 y⟩
  unfold stateAt
  rw [if_pos h1, cutoff_apply]
  refine congrArg (max · 0) ?_
  refine step (adjA m c) (dfA m c) (t.val / 8) (t.val % 8) (iblk m c 0 t) (tileRows (grid0.coords t) (iblk m c 1 t))
    _ (adj_block m c t) (df_rows m c t) r j ?_
  have e1 : (t.val - 1) % 8 + 1 = t.val % 8 := by omega
  have e2 : (t.val - 1) / 8 = t.val / 8 := by omega
  show (if (t.val - 1) % 8 = 7 then _ else _) = _
  rw [if_neg (by omega), e1, e2]

/-- After every point the output block holds its running sum. -/
theorem outsAt_eq (c : Dev nD) : ∀ (n : ℕ) (h : n < cfg0.N), outsAt0 m c n h = stateAt (adjA m c) (dfA m c) n
  | 0, h => at_first m c ⟨0, h⟩ rfl
  | n + 1, h => by
    by_cases h0 : (n + 1) % 8 = 0
    · exact at_first m c ⟨n + 1, h⟩ h0
    · by_cases h1 : (n + 1) % 8 = 7
      · exact at_last m c ⟨n + 1, h⟩ h0 h1 fun h' => outsAt_eq c n h'
      · exact at_middle m c ⟨n + 1, h⟩ h0 h1 fun h' => outsAt_eq c n h'

end Cert.KernelIdeal.Accum

end
-- ==== Proof.FinalArray.lean ====
/-
  The region's result array after the run.

  The output block of row tile I is written back once, after its last column tile, to rows 2048 I .. 2048 I + 2047 of the
  8192 x 256 result array. What is written back is, at (r, j), entry (2048 I + r, j) of adj · df summed over all eight
  tiles and cut off at zero, which is the restriction to those rows of one function of the whole arrays; the four
  write-backs cover every row. So the result array ends at that function: (R, j) ↦ max (Σ_{n < 8192} adj(0,R,n) · df(n,j)) 0.
-/
import proofs.«119241_j63788854281032_2_alg».proof.Proof.Accumulation
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.FinalArray

open Cert.KernelIdeal Cert.KernelIdeal.Gen Cert.NatRead Cert.KernelIdeal.TileSum Cert.KernelIdeal.Accum

variable (m : (ℓ : Loc nD τ sig) → Buf (Elt Ideal) ℓ)

/-- The product adj · df, all eight tiles in, cut off below at zero. -/
def reluProduct (adj : S1x8192x8192.Idx → EReal) (df : S8192x256.Idx → EReal) : S8192x256.Idx → EReal := fun i =>
  max (partialSum adj df (i 0).val (i 1).val 8) 0

theorem idx_out : ∀ t : Fin cfg0.N, win0_2.index t 0 = t.val / 8 ∧ win0_2.index t 1 = 0 :=
  (by decide +kernel : ∀ t : Fin grid0.N, win0_2.index t 0 = t.val / 8 ∧ win0_2.index t 1 = 0)

theorem max_congr (adj : S1x8192x8192.Idx → EReal) (df : S8192x256.Idx → EReal) (a b K a' b' K' : ℕ)
    (ha : a = a') (hb : b = b') (hK : K = K') :
    max (partialSum adj df a b K) 0 = max (partialSum adj df a' b' K') 0 := by
  subst ha hb hK; rfl

/-- What a write-back writes is its block of the cut-off product. -/
theorem flushed_eq (c : Dev nD) (t : Fin cfg0.N) (hf : (cfg0.win 2).flush t = true) :
    (dats m 0 c).flushed 2 t = ((cfg0.win 2).blk t).view.read (Elt Ideal) (reluProduct (adjA m c) (dfA m c)) := by
  have h7 : t.val % 8 = 7 := (flush0_2 t).mp hf
  show (cfg0.win 2).cut (grid0.coords t) ((dats m 0 c).after 2 t) = _
  rw [after0_2, outsAt_eq]
  funext y
  rw [View.read_apply]
  show stateAt (adjA m c) (dfA m c) t.val _ = reluProduct (adjA m c) (dfA m c) _
  unfold stateAt reluProduct
  rw [if_pos h7]
  refine max_congr (adjA m c) (dfA m c) _ _ _ _ _ _ ?_ ?_ (by omega)
  · show 2048 * (t.val / 8) + (y 0).val = win0_2.index t 0 * 2048 + 1 * (y 0).val
    rw [(idx_out t).1]; omega
  · show (y 1).val = win0_2.index t 1 * 256 + 1 * (y 1).val
    rw [(idx_out t).2]; omega

/-- An index of the result array is in point t's block iff each coordinate is in the block's range. -/
theorem mem_blk (t : Fin cfg0.N) (i : S8192x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_call0_v2).slice (win0_2.rect t)).set ↔ _
  rw [View.set_slice_whole, Rect.mem_set_unit]
  exact Iff.rfl

/-- Every row is in the block some write-back writes: row R in that of the last column tile of row tile R / 2048. -/
theorem covered (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 32 := N_0
  let t : Fin cfg0.N := ⟨8 * ((i 0).val / 2048) + 7, by rw [hN]; omega⟩
  have ht : t.val = 8 * ((i 0).val / 2048) + 7 := rfl
  refine ⟨t, (flush0_2 t).mpr (by rw [ht]; omega), ?_⟩
  rw [mem_blk]
  obtain ⟨e0, e1⟩ := idx_out t
  intro a
  match a with
  | ⟨0, _⟩ => show win0_2.index t 0 * 2048 ≤ (i 0).val ∧ (i 0).val < win0_2.index t 0 * 2048 + 2048
              rw [e0, ht]; omega
  | ⟨1, _⟩ => show win0_2.index t 1 * 256 ≤ (i 1).val ∧ (i 1).val < win0_2.index t 1 * 256 + 256
              rw [e1]; omega

/-- The result array after the run. -/
theorem final (c : Dev nD) : (dats m 0 c).arrAt 2 cfg0.N = reluProduct (adjA m c) (dfA m c) :=
  (dats m 0 c).arrAt_eq_of_cover 2 (reluProduct (adjA m c) (dfA m c)) (flushed_eq m c) (covered)

end Cert.KernelIdeal.FinalArray

end
-- ==== Proof.KernelRun.lean ====
/-
  The idealized kernel program's run, read as values.

  Before the region the program reshapes the feature array to 8192 x 256 and multiplies it with the weight: this is the
  feature product the region stages whole. After the region it gives the 8192 x 256 result array a leading unit axis.
  So the program's result is, entry by entry, the cut-off product of the adjacency array (unchanged by the host lines)
  with that feature product, and its three arguments end as they began.
-/
import proofs.«119241_j63788854281032_2_alg».proof.Proof.FinalArray
import Idealize.ShloMosaic.Lib.StableHlo.Run
import Idealize.ShloMosaic.Lib.Pipeline.FrameSuffix

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.KernelIdeal.Accum Cert.KernelIdeal.FinalArray

variable (m : (ℓ : Loc nD τ sig) → Buf (Elt Ideal) ℓ) (ρ : Dev nD → PrngReg)

/-- The feature product: the feature array without its leading unit axis, times the weight. -/
def featureProduct (data : FVec Ideal S1x8192x256 .f32) (w : FVec Ideal S256x256 .f32) : FVec Ideal S8192x256 .f32 :=
  Host.dotGeneral (F := Ideal) dot_S8192x256_S256x256_S8192x256_1_0_0_1_n_n none
    (shapeCast S8192x256 data shapeCasts_S1x8192x256_S8192x256) w

/-- The program's result as a function of its three argument arrays. -/
def value (data : FVec Ideal S1x8192x256 .f32) (adj : FVec Ideal S1x8192x8192 .f32) (w : FVec Ideal S256x256 .f32) :
    FVec Ideal S1x8192x256 .f32 :=
  broadcastInDim S1x8192x256 ![1, 2] bcast_S8192x256_S1x8192x256_1_2 (reluProduct adj (featureProduct data w))

/-- The region finds the feature product where the host lines before it left it. -/
theorem df_entry (c : Dev nD) :
    dfA m c = featureProduct (m ((c.tc : Thread nD τ).loc main_arg0)) (m ((c.tc : Thread nD τ).loc main_arg2)) := by
  show StableHlo.after hostOps0 (fun b => m (c, b)) (Proc.devRef .tc main_call0_v1) = _
  after_results
  rfl

/-- A result array at the cut-off product gives the program's value once the leading axis is added. -/
theorem value_of (data : FVec Ideal S1x8192x256 .f32) (adj : FVec Ideal S1x8192x8192 .f32) (w : FVec Ideal S256x256 .f32)
    (X : FVec Ideal S8192x256 .f32) (h : X = reluProduct adj (featureProduct data w)) :
    broadcastInDim S1x8192x256 ![1, 2] bcast_S8192x256_S1x8192x256_1_2 X = value data adj w := by
  subst h; rfl

/-- The region leaves its result array at the cut-off product of the adjacency argument with the feature product. -/
theorem region_result (c : Dev nD) :
    Pipeline.withArrays spec0 c (V0 m c) (fun w => (dats m 0 c).arrAt w cfg0.N) (Proc.devRef .tc (Pipeline.arrRef spec0 2))
      = reluProduct (m ((c.tc : Thread nD τ).loc main_arg1))
          (featureProduct (m ((c.tc : Thread nD τ).loc main_arg0)) (m ((c.tc : Thread nD τ).loc main_arg2))) := by
  refine ((Pipeline.withArrays_arr spec0 launch0.win.arr_inj c (V0 m c) (fun w => (dats m 0 c).arrAt w cfg0.N) 2).trans
    (final m c)).trans ?_
  rw [df_entry m c]
  exact congrArg (reluProduct · _) (V_main_arg1 m c)

/-- The host line after the region, over the region's final result array. -/
theorem tail_eq (c : Dev nD) :
    Pipeline.afterTail₀ cfgs (dats m) 0 (V0 m) [hostOps1] c main_v0
      = value (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v0) = _
  after_results
  exact value_of _ _ _ _ (region_result m c)

/-- Every weakly fair execution ends with the result at `value` of the arguments and the arguments unchanged. -/
theorem run : θ_run defs (onTc (τ := τ) (main (F := Ideal))) ⟨m, fun _ => 0, ρ⟩ fun r => ∀ c : Dev nD,
      r.2.mem ((c.tc : Thread nD τ).loc main_v0)
        = value (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.KernelIdeal.KernelRun

end
-- ==== Proof.ProductForms.lean ====
/-
  The two orders of the triple product, at natural-number coordinates.

  With adj the (1, 8192, 8192) adjacency array, data the (1, 8192, 256) feature array and w the 256 x 256 weight, entry (R, j)
  of the layer is max (Σ_n Σ_f adj(0,R,n) · data(0,n,f) · w(f,j)) 0. The kernel groups it as adj · (data · w), the reference as
  (adj · data) · w. Where all three arrays hold real numbers the two groupings agree (associativity of the matrix product,
  which on the extended reals needs exactly that: no infinity among the entries). Also here: the feature product data · w as
  the host computes it, read at natural coordinates.
-/
import proofs.«119241_j63788854281032_2_alg».proof.Proof.LibMatAssoc
import proofs.«119241_j63788854281032_2_alg».proof.Proof.LibNatRead
import proofs.«119241_j63788854281032_2_alg».proof.Proof.LibPlainDot
import Idealize.ShloMosaic.Lib.Pipeline.Value

noncomputable section

open Idealize.ShloMosaic Idealize.ShloMosaic.ValueIdx

namespace Cert.ProductForms

open Cert.MatAssoc Cert.NatRead Finset

abbrev SData : Shape := ⟨3, ![1, 8192, 256]⟩
abbrev SAdj : Shape := ⟨3, ![1, 8192, 8192]⟩
abbrev SW : Shape := ⟨2, ![256, 256]⟩
abbrev SDf : Shape := ⟨2, ![8192, 256]⟩

/-- adj · (data · w), cut off at zero. -/
def kernelForm (data : SData.Idx → EReal) (adj : SAdj.Idx → EReal) (w : SW.Idx → EReal) (R j : ℕ) : EReal :=
  max (∑ n ∈ range 8192, rd3 adj 0 R n * ∑ f ∈ range 256, rd3 data 0 n f * rd2 w f j) 0

/-- (adj · data) · w, cut off at zero. -/
def referenceForm (data : SData.Idx → EReal) (adj : SAdj.Idx → EReal) (w : SW.Idx → EReal) (R j : ℕ) : EReal :=
  max (∑ f ∈ range 256, (∑ n ∈ range 8192, rd3 adj 0 R n * rd3 data 0 n f) * rd2 w f j) 0

/-- Over arrays of real numbers the two groupings are one number. -/
theorem forms_eq (data : SData.Idx → EReal) (adj : SAdj.Idx → EReal) (w : SW.Idx → EReal)
    (hdata : ∀ i, IsReal (data i)) (hadj : ∀ i, IsReal (adj i)) (hw : ∀ i, IsReal (w i)) (R j : ℕ) :
    kernelForm data adj w R j = referenceForm data adj w R j := by
  unfold kernelForm referenceForm
  rw [assoc_of_real 8192 256 (fun n => rd3 adj 0 R n) (fun n f => rd3 data 0 n f) (fun f => rd2 w f j)
    (fun n => isReal_rd3 adj hadj 0 R n) (fun n f => isReal_rd3 data hdata 0 n f) (fun f => isReal_rd2 w hw f j)]

/-- The feature array without its leading unit axis. -/
theorem squeeze_apply (data : SData.Idx → EReal) (h : SData.ShapeCasts SDf) (n : Fin 8192) (f : Fin 256) :
    shapeCast SDf data h (ix2 n f) = rd3 data 0 n.val f.val := by
  rw [shapeCast_apply data h (ix2 n f) (ix3 (0 : Fin 1) n f)
    (by rw [Shape.rowMajor_val_three, Shape.rowMajor_val_two]
        show (0 * 8192 + n.val) * 256 + f.val = n.val * 256 + f.val
        omega)]
  exact rd3_ix data (0 : Fin 1) n f

/-- The host's feature product at (n, j). -/
theorem featureProduct_apply (data : FVec Ideal SData .f32) (w : FVec Ideal SW .f32) (h : SData.ShapeCasts SDf)
    (n j : ℕ) (hn : n < 8192) (hj : j < 256) :
    rd2 (Host.dotGeneral (F := Ideal) (DotDims.plain 8192 256 256) none (shapeCast SDf data h) w) n j
      = ∑ f ∈ range 256, rd3 data 0 n f * rd2 w f j := by
  rw [rd2_mk _ n hn j hj, Cert.LibPlainDot.dotGeneral_plain, ← sum_fin 256 fun f => rd3 data 0 n f * rd2 w f j]
  refine Finset.sum_congr rfl fun f _ => ?_
  exact congr (congrArg HMul.hMul (squeeze_apply data h ⟨n, hn⟩ f)) (rd2_ix w f ⟨j, hj⟩)

end Cert.ProductForms

end
-- ==== Proof.KernelForm.lean ====
/-
  The idealized kernel's result, entry by entry.

  The leading unit axis the host adds after the region reads the result array at (R, j); that entry is the sum over all
  eight column tiles, 8192 terms adj(0,R,n) · df(n,j), cut off at zero; and df(n,j), the host's feature product, is
  Σ_{f < 256} data(0,n,f) · w(f,j). So entry (0, R, j) of the kernel's result is max (Σ_n adj(0,R,n) · Σ_f data(0,n,f) · w(f,j)) 0.
-/
import proofs.«119241_j63788854281032_2_alg».proof.Proof.KernelRun
import proofs.«119241_j63788854281032_2_alg».proof.Proof.ProductForms

noncomputable section

open Idealize.ShloMosaic Idealize.ShloMosaic.ValueIdx

namespace Cert.KernelIdeal.Form

open Cert.KernelIdeal Cert.KernelIdeal.Gen Cert.KernelIdeal.KernelRun Cert.KernelIdeal.FinalArray Cert.KernelIdeal.TileSum
  Cert.NatRead Cert.ProductForms

theorem value_apply (data : FVec Ideal S1x8192x256 .f32) (adj : FVec Ideal S1x8192x8192 .f32) (w : FVec Ideal S256x256 .f32)
    (i : S1x8192x256.Idx) :
    value data adj w i = kernelForm data adj w (i 1).val (i 2).val := by
  have h2 : (i 2).val < 256 := (i 2).isLt
  unfold value
  rw [broadcastInDim_apply _ bcast_S8192x256_S1x8192x256_1_2 _ i (ix2 (i 1) (i 2)) (fun a => match a with
    | ⟨0, _⟩ => by show (i 1).val = if (8192 : Nat) = 1 then 0 else (i 1).val; rw [if_neg (by decide)]
    | ⟨1, _⟩ => by show (i 2).val = if (256 : Nat) = 1 then 0 else (i 2).val; rw [if_neg (by decide)])]
  unfold reluProduct kernelForm
  refine congrArg (max · 0) ?_
  show partialSum adj (featureProduct data w) (i 1).val (i 2).val 8 = _
  unfold partialSum
  refine Finset.sum_congr rfl fun n hn => ?_
  unfold term
  exact congrArg (_ * ·) (featureProduct_apply data w shapeCasts_S1x8192x256_S8192x256 n (i 2).val (Finset.mem_range.mp hn) h2)

end Cert.KernelIdeal.Form

end
-- ==== Proof.ReferenceForm.lean ====
/-
  The idealized reference's result, entry by entry.

  The reference drops the leading unit axes of the adjacency and feature arrays, multiplies adjacency by features, the
  product by the weight, restores the leading axis and takes the maximum with 0. Read one operation at a time at an index,
  entry (0, R, j) of its result is max (Σ_{f < 256} (Σ_{n < 8192} adj(0,R,n) · data(0,n,f)) · w(f,j)) 0: the reshapes keep the
  row-major position, so position R · 8192 + n of the squeezed adjacency array is (0, R, n) of the original.
-/
import proofs.«119241_j63788854281032_2_alg».proof.Proof.Gen.ReferenceIdeal.Read
import proofs.«119241_j63788854281032_2_alg».proof.Proof.ProductForms

noncomputable section

open Idealize.ShloMosaic Idealize.ShloMosaic.ValueIdx

namespace Cert.ReferenceIdeal.Form

open Cert.ReferenceIdeal Cert.ReferenceIdeal.Gen Cert.ReferenceIdeal.Read Cert.NatRead Cert.ProductForms

/-- The adjacency · feature product at (R, f). -/
theorem inner_apply (x0 : FVec Ideal S1x8192x256 .f32) (x1 : FVec Ideal S1x8192x8192 .f32) (i : S8192x256.Idx) :
    val_main_v2 (F := Ideal) x0 x1 i = ∑ n ∈ Finset.range 8192, rd3 x1 0 (i 0).val n * rd3 x0 0 n (i 1).val := by
  have h0 : (i 0).val < 8192 := (i 0).isLt
  have h1 : (i 1).val < 256 := (i 1).isLt
  rw [val_main_v2_apply, ← sum_fin 8192 fun n => rd3 x1 0 (i 0).val n * rd3 x0 0 n (i 1).val]
  refine Finset.sum_congr rfl fun n _ => ?_
  have hn : n.val < 8192 := n.isLt
  rw [val_main_v0_apply, val_main_v1_apply]
  refine congr (congrArg HMul.hMul (rd3_of_val x1 _ 0 (i 0).val n.val rfl ?_ ?_)) (rd3_of_val x0 _ 0 n.val (i 1).val rfl ?_ ?_)
  · show ((i 0).val * 8192 + n.val) / 8192 % 8192 = (i 0).val
    omega
  · show ((i 0).val * 8192 + n.val) % 8192 = n.val
    omega
  · show (n.val * 256 + (i 1).val) / 256 % 8192 = n.val
    omega
  · show (n.val * 256 + (i 1).val) % 256 = (i 1).val
    omega

/-- The reference's result at an index. -/
theorem result_apply (x0 : FVec Ideal S1x8192x256 .f32) (x1 : FVec Ideal S1x8192x8192 .f32) (x2 : FVec Ideal S256x256 .f32)
    (i : S1x8192x256.Idx) :
    val_main_v5 (F := Ideal) x0 x1 x2 i = referenceForm x0 x1 x2 (i 1).val (i 2).val := by
  rw [val_main_v5_apply, val_main_v4_apply, val_main_call0_v0_apply, val_main_call0_cst_apply, val_main_v3_apply]
  show max _ (Ideal.ofBits .f32 0x00000000#32) = _
  rw [Ideal.ofBits_zero_f32]
  unfold referenceForm
  refine congrArg (max · 0) ?_
  rw [← sum_fin 256 fun f => (∑ n ∈ Finset.range 8192, rd3 x1 0 (i 1).val n * rd3 x0 0 n f) * rd2 x2 f (i 2).val]
  refine Finset.sum_congr rfl fun k _ => ?_
  rw [inner_apply]
  exact congrArg (_ * ·) (rd2_of_val x2 _ k.val (i 2).val rfl rfl)

end Cert.ReferenceIdeal.Form

end
-- ==== Proof.Finite.lean ====
/-
  The precondition: every entry of the three input arrays is a real number.

  The precondition is printed as a rank-0 boolean: for each input, "|x| < +inf" at every entry, all of them and-ed together
  (a reduction by `and` per input, then two more `and`s). If it is 1, each of the three reductions is 1, so the comparison
  holds at every entry; and an extended real whose absolute value max x (-x) is below +inf is neither infinity.
-/
import proofs.«119241_j63788854281032_2_alg».proof.Proof.Gen.Pre_finite_inputs
import proofs.«119241_j63788854281032_2_alg».proof.Proof.LibMatAssoc
import Idealize.ShloMosaic.Lib.ReduceAll
import Idealize.ShloMosaic.Lib.Affine
import Idealize.ShloMosaic.Lib.ValueIdx
import Idealize.ShloMosaic.PureOps.Ideal.Laws

noncomputable section

open Idealize.ShloMosaic

namespace Cert.FiniteInputs

open Cert.Pre_finite_inputs Cert.MatAssoc

instance : Subsingleton S_.Idx := ⟨fun a b => funext fun d => d.elim0⟩

/-- The word the comparison is made against is +inf. -/
theorem inf_word : Ideal.ofBits .f32 0x7F800000#32 = ⊤ := by simp [Ideal.ofBits, Ideal.ieee]

/-- An extended real with |x| < +inf is a real number. -/
theorem isReal_of_lt (x : EReal) (h : Ideal.cmp .olt (max x (-x)) ⊤ = 1#1) : IsReal x := by
  induction x using EReal.rec with
  | bot => exfalso; simp [Ideal.cmp] at h
  | coe r => exact ⟨r, rfl⟩
  | top => exfalso; simp [Ideal.cmp] at h

/-- If the printed precondition is all ones, the three arrays hold real numbers. -/
theorem finite_of_pre (x0 : FVec Ideal S1x8192x256 .f32) (x1 : FVec Ideal S1x8192x8192 .f32) (x2 : FVec Ideal S256x256 .f32)
    (h : fn (F := Ideal) x0 x1 x2 = fun _ => 1#1) :
    (∀ i, IsReal (x0 i)) ∧ (∀ i, IsReal (x1 i)) ∧ (∀ i, IsReal (x2 i)) := by
  have h' := congrFun h ValueIdx.ix0
  dsimp only [fn] at h'
  obtain ⟨h01, h2⟩ := IntOp.andi_eq_one.mp h'
  obtain ⟨h0, h1⟩ := IntOp.andi_eq_one.mp h01
  refine ⟨fun i => isReal_of_lt _ ?_, fun i => isReal_of_lt _ ?_, fun i => isReal_of_lt _ ?_⟩
  · have e := Host.reduce_andi_all _ _ _ _ _ h0 i
    rw [← inf_word]; exact e
  · have e := Host.reduce_andi_all _ _ _ _ _ h1 i
    rw [← inf_word]; exact e
  · have e := Host.reduce_andi_all _ _ _ _ _ h2 i
    rw [← inf_word]; exact e

end Cert.FiniteInputs

end
-- ==== Proof.lean ====
/-
  One graph-convolution layer, relu (adj · data · w), two ways.

  The kernel first forms the feature product df = data · w on the host (8192 x 256), then streams the 8192 x 8192 adjacency
  array through a 4 x 8 grid of (2048, 1024) blocks: each point multiplies its block with the matching 1024 rows of df and
  adds the product to the (2048, 256) output block of its row tile, which is zeroed at the first column tile and cut off
  at zero after the last. The reference computes relu ((adj · data) · w) with two host products.

  On the extended reals every partial product is exact, the order of a finite sum does not matter, and narrowing to a 16-bit
  float is the identity; so the kernel's result at (0, R, j) is max (Σ_n adj(0,R,n) · (Σ_f data(0,n,f) · w(f,j))) 0 and the
  reference's is max (Σ_f (Σ_n adj(0,R,n) · data(0,n,f)) · w(f,j)) 0. The two agree by associativity of the matrix product,
  which holds because the precondition makes every entry a real number (with an infinity among them it can fail:
  distributivity is lost). The ideal pass rewrote nothing, so the kernel's idealization is its own text.
-/
import proofs.«119241_j63788854281032_2_alg».proof.Defs
import proofs.«119241_j63788854281032_2_alg».proof.Proof.Gen.Kernel
import proofs.«119241_j63788854281032_2_alg».proof.Proof.Gen.Kernel.Frame
import proofs.«119241_j63788854281032_2_alg».proof.Proof.Gen.KernelIdeal
import proofs.«119241_j63788854281032_2_alg».proof.Proof.Gen.KernelIdeal.Frame
import proofs.«119241_j63788854281032_2_alg».proof.Proof.Gen.ReferenceIdeal
import proofs.«119241_j63788854281032_2_alg».proof.Proof.Gen.Pre_finite_inputs
import proofs.«119241_j63788854281032_2_alg».proof.Proof.Gen.ReferenceIdeal.Run
import proofs.«119241_j63788854281032_2_alg».proof.Proof.Gen.ReferenceIdeal.Read
import proofs.«119241_j63788854281032_2_alg».proof.Proof.KernelForm
import proofs.«119241_j63788854281032_2_alg».proof.Proof.ReferenceForm
import proofs.«119241_j63788854281032_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both idealized programs end at one array: the kernel's grouping adj · (data · w) and the
    reference's (adj · data) · w, entry by entry, over arrays of real numbers. -/
theorem algebraic : Cert.algebraic_KernelIdeal_ReferenceIdeal := by
  intro m ρ m' ρ' hpre hagree
  refine ⟨fun c => Cert.KernelIdeal.KernelRun.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, (hagree c).1, (hagree c).2.1, (hagree c).2.2]
  obtain ⟨hd, ha, hw⟩ := Cert.FiniteInputs.finite_of_pre _ _ _ (hpre c)
  funext i
  show Cert.ReferenceIdeal.Read.val_main_v5 (F := Ideal) _ _ _ i = Cert.KernelIdeal.KernelRun.value _ _ _ i
  rw [Cert.ReferenceIdeal.Form.result_apply, Cert.KernelIdeal.Form.value_apply]
  exact (Cert.ProductForms.forms_eq _ _ _ hd ha hw _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
